-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x512 : Shape := ⟨2, ![1024, 512]⟩
abbrev S256x512 : Shape := ⟨2, ![256, 512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_

variable [Facts]

def fn {F : FTy → Type} [FloatOps F] (main_arg0 : FVec F S1024x512 .f32) (main_arg1 : FVec F S1024x512 .f32) (main_arg2 : FVec F S256x512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  let main_v4 : FVec F S1024x512 .f32 := Host.absf main_arg1
  let main_cst_0 : FVec F S_ .f32 := constant S_ .f32 0x7F800000#32
  let main_v5 : FVec F S1024x512 .f32 := broadcastInDim S1024x512 ![] bcast_S_S1024x512 main_cst_0
  let main_v6 : IVec S1024x512 1 := cmpf .olt main_v4 main_v5
  let main_c_1 : IVec S_ 1 := constantI S_ 1 1#1
  let main_v7 : IVec S_ 1 := (fun x v => Host.reduce IntOp.andi x v reducesTo_S1024x512_S_d0_1 h_S_) main_v6 main_c_1
  let main_v8 : IVec S_ 1 := andi main_v3 main_v7
  let main_v9 : FVec F S256x512 .f32 := Host.absf main_arg2
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  main_v13
-- ==== Kernel.lean ====
abbrev S1024x512 : Shape := ⟨2, ![1024, 512]⟩
abbrev S256x512 : Shape := ⟨2, ![256, 512]⟩
abbrev S1024x1024 : Shape := ⟨2, ![1024, 1024]⟩
abbrev S512x512 : Shape := ⟨2, ![512, 512]⟩
abbrev S512x256 : Shape := ⟨2, ![512, 256]⟩

abbrev nBuf : Space → Nat
  | .hbm => 4
  | .vmem => 7
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S256x512, .f32⟩
  | .hbm, ⟨3, _⟩ => ⟨S1024x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S256x512, .f32⟩
  | .local _ .vmem, ⟨5, _⟩ => ⟨S512x512, .f32⟩
  | .local _ .vmem, ⟨6, _⟩ => ⟨S512x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S512x512_S512x512_0_0 : ∀ a, (![0, 0] : Fin 2 → Nat) a + S512x512.size a ≤ S512x512.size a
  h_S512x512 : 0 < S512x512.numel
  inb_S256x512_S256x512_0_0 : ∀ a, (![0, 0] : Fin 2 → Nat) a + S256x512.size a ≤ S256x512.size a
  h_S256x512 : 0 < S256x512.numel
  bitsLt_bf16_f32 : FTy.bits .bf16 < FTy.bits .f32
  natLt_1_32 : 1 < 32
  dot_S512x512_S256x512_S512x256_1_1_0_0_n_n_wf : DotDims.WF S512x512 S256x512 S512x256 [1] [1] [0] [0] [] []
  dot_S512x256_S512x256_S512x512_1_1_0_0_n_n_wf : DotDims.WF S512x256 S512x256 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S1024x512.size a
  hwx0_0 : ∀ i : grid0.Coords, EltTy.bits .f32 = 32 ∨ (Rect.block (s := S1024x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S1024x512.size a
  hwx0_1 : ∀ i : grid0.Coords, EltTy.bits .f32 = 32 ∨ (Rect.block (s := S1024x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S256x512.size a
  hwx0_2 : ∀ i : grid0.Coords, EltTy.bits .f32 = 32 ∨ (Rect.block (s := S256x512) S256x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S1024x1024.size a
  hwx0_3 : ∀ i : grid0.Coords, EltTy.bits .f32 = 32 ∨ (Rect.block (s := S1024x1024) S512x512.size (cc0_transform_3 i) (hinb0_3 i)).WholeWords (EltTy.packing .f32)

variable [Facts₀]

def dot_S512x512_S256x512_S512x256_1_1_0_0_n_n : DotDims S512x512 S256x512 S512x256 where
  lhsContracting := [1]
  rhsContracting := [1]
  lhsNonContracting := [0]
  rhsNonContracting := [0]
  lhsBatch := []
  rhsBatch := []
  wf := dot_S512x512_S256x512_S512x256_1_1_0_0_n_n_wf
def dot_S512x256_S512x256_S512x512_1_1_0_0_n_n : DotDims S512x256 S512x256 S512x512 where
  lhsContracting := [1]
  rhsContracting := [1]
  lhsNonContracting := [0]
  rhsNonContracting := [0]
  lhsBatch := []
  rhsBatch := []
  wf := dot_S512x256_S512x256_S512x512_1_1_0_0_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1024x512 : Shape := ⟨2, ![1024, 512]⟩
abbrev S256x512 : Shape := ⟨2, ![256, 512]⟩
abbrev S512x256 : Shape := ⟨2, ![512, 256]⟩
abbrev S1024x256 : Shape := ⟨2, ![1024, 256]⟩
abbrev S1024x1x256 : Shape := ⟨3, ![1024, 1, 256]⟩
abbrev S1x1024x256 : Shape := ⟨3, ![1, 1024, 256]⟩
abbrev S_ : Shape := ⟨0, ![]⟩
abbrev S1024x1024x256 : Shape := ⟨3, ![1024, 1024, 256]⟩
abbrev S1024x1024 : Shape := ⟨2, ![1024, 1024]⟩

abbrev nBuf : Space → Nat
  | .hbm => 23
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S256x512, .f32⟩
  | .hbm, ⟨3, _⟩ => ⟨S512x256, .f32⟩
  | .hbm, ⟨4, _⟩ => ⟨S1024x256, .f32⟩
  | .hbm, ⟨5, _⟩ => ⟨S512x256, .f32⟩
  | .hbm, ⟨6, _⟩ => ⟨S1024x256, .f32⟩
  | .hbm, ⟨7, _⟩ => ⟨S1024x1x256, .f32⟩
  | .hbm, ⟨8, _⟩ => ⟨S1x1024x256, .f32⟩
  | .hbm, ⟨9, _⟩ => ⟨S_, .f32⟩
  | .hbm, ⟨10, _⟩ => ⟨S1024x1x256, .f32⟩
  | .hbm, ⟨11, _⟩ => ⟨S1024x1x256, .i1⟩
  | .hbm, ⟨12, _⟩ => ⟨S_, .f32⟩
  | .hbm, ⟨13, _⟩ => ⟨S1x1024x256, .f32⟩
  | .hbm, ⟨14, _⟩ => ⟨S1x1024x256, .i1⟩
  | .hbm, ⟨15, _⟩ => ⟨S1024x1024x256, .i1⟩
  | .hbm, ⟨16, _⟩ => ⟨S1024x1024x256, .i1⟩
  | .hbm, ⟨17, _⟩ => ⟨S1024x1024x256, .i1⟩
  | .hbm, ⟨18, _⟩ => ⟨S1024x1024x256, .f32⟩
  | .hbm, ⟨19, _⟩ => ⟨S1024x1024x256, .f32⟩
  | .hbm, ⟨20, _⟩ => ⟨S1024x1024x256, .f32⟩
  | .hbm, ⟨21, _⟩ => ⟨S_, .f32⟩
  | .hbm, ⟨22, _⟩ => ⟨S1024x1024, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩

abbrev nD : Nat := 1
abbrev τ : Topo := Topo.v7x

variable {F : FTy → Type} [FloatOps F]

class Facts₀ : Prop where
  transposes_S256x512_S512x256_1_0 : S256x512.Transposes [1, 0] S512x256
  bcast_S1024x256_S1024x1x256_0_2 : S1024x256.BroadcastsInDim S1024x1x256 (![0, 2] : Fin 2 → Fin S1024x1x256.rank)
  bcast_S1024x256_S1x1024x256_1_2 : S1024x256.BroadcastsInDim S1x1024x256 (![1, 2] : Fin 2 → Fin S1x1024x256.rank)
  bcast_S_S1024x1x256 : S_.BroadcastsInDim S1024x1x256 (![] : Fin 0 → Fin S1024x1x256.rank)
  bcast_S_S1x1024x256 : S_.BroadcastsInDim S1x1024x256 (![] : Fin 0 → Fin S1x1024x256.rank)
  bcast_S1024x1x256_S1024x1024x256_0_1_2 : S1024x1x256.BroadcastsInDim S1024x1024x256 (![0, 1, 2] : Fin 3 → Fin S1024x1024x256.rank)
  bcast_S1x1024x256_S1024x1024x256_0_1_2 : S1x1024x256.BroadcastsInDim S1024x1024x256 (![0, 1, 2] : Fin 3 → Fin S1024x1024x256.rank)
  reducesTo_S1024x1024x256_S1024x1024_d2 : S1024x1024x256.ReducesTo [2] S1024x1024
  h_S_ : 0 < S_.numel
  dot_S1024x512_S512x256_S1024x256_1_0_0_1_n_n_wf : DotDims.WF S1024x512 S512x256 S1024x256 [1] [0] [0] [1] [] []

variable [Facts₀]

def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf

class Facts : Prop extends Facts₀ where

variable [Facts]
-- ==== Proof.PresentAbsent.lean ====
/-
  The function both programs compute, and the law joining their two spellings of it.

  For arrays `a, b : [1024, 512]` and a feature bank `f : [256, 512]` over the extended reals put
      proj x f r k = Σ_d x[r, d] · f[k, d].
  The result at `(r, s)` is
      Σ_k  max (proj a f r k) 0 · [proj b f s k ≤ 0],
  the features present in row `r` of `a` (positive projection, weighted by it) and absent from row `s` of `b`
  (nonpositive projection).  One program forms exactly this product: the positive part of the first projection
  times the 0/1 indicator of the second being nonpositive.  The other multiplies the first projection ITSELF by the
  0/1 indicator of "first positive AND second nonpositive".  The two agree term by term on all of `EReal`: where the
  first projection is positive its positive part is itself and the conjunction reduces to the second test;
  elsewhere the positive part is `0` and the conjunction is false, and `x · 0 = 0 · y = 0` for every extended
  real, the infinite ones included.  Nothing here needs the inputs to be finite.
-/
import Idealize.ShloMosaic.PureOps.Ideal
import Idealize.ShloMosaic.PureOps.Ideal.Laws
import Idealize.ShloMosaic.Lib.ValueIdx

noncomputable section

namespace Cert.PresentAbsent

open Idealize.ShloMosaic Idealize.ShloMosaic.ValueIdx

/-- The 0/1 indicator of `y ≤ 0`, as an extended real. -/
def absent (y : EReal) : EReal := if y ≤ 0 then 1 else 0

/-- The 0/1 indicator of `0 < x ∧ y ≤ 0`, as an extended real. -/
def presentAbsent (x y : EReal) : EReal := if 0 < x ∧ y ≤ 0 then 1 else 0

/-- Row `r` of `x` against row `k` of the feature bank: `Σ_d x[r, d] · f[k, d]`. -/
def proj (x : (⟨2, ![1024, 512]⟩ : Shape).Idx → EReal) (f : (⟨2, ![256, 512]⟩ : Shape).Idx → EReal)
    (r : Fin 1024) (k : Fin 256) : EReal :=
  ∑ d : Fin 512, x (ix2 r d) * f (ix2 k d)

/-- The result at row `r` of `a` and row `s` of `b`: `Σ_k max (proj a f r k) 0 · [proj b f s k ≤ 0]`. -/
def scoreAt (a b : (⟨2, ![1024, 512]⟩ : Shape).Idx → EReal) (f : (⟨2, ![256, 512]⟩ : Shape).Idx → EReal)
    (r s : Fin 1024) : EReal :=
  ∑ k : Fin 256, max (proj a f r k) 0 * absent (proj b f s k)

/-- The whole `[1024, 1024]` result array. -/
def score (a b : (⟨2, ![1024, 512]⟩ : Shape).Idx → EReal) (f : (⟨2, ![256, 512]⟩ : Shape).Idx → EReal) :
    (⟨2, ![1024, 1024]⟩ : Shape).Idx → EReal :=
  fun j => scoreAt a b f ⟨(j 0).val, idx2_lt0 j⟩ ⟨(j 1).val, idx2_lt1 j⟩

theorem score_ix2 (a b : (⟨2, ![1024, 512]⟩ : Shape).Idx → EReal) (f : (⟨2, ![256, 512]⟩ : Shape).Idx → EReal)
    (r s : Fin 1024) : score a b f (ix2 r s) = scoreAt a b f r s := rfl

/-- The comparison `y ≤ 0` as a one-bit word, widened with zeros to 32 bits and read as a signed integer, is the
    indicator. -/
theorem absent_of_word (y : EReal) :
    ((((Ideal.cmp .ole y 0).setWidth 32).toInt : ℝ) : EReal) = absent y := by
  unfold absent Ideal.cmp
  by_cases h : y ≤ 0
  · rw [if_pos h]; simp [h]
  · rw [if_neg h]; simp [h]

/-- The bitwise AND of the one-bit comparisons `0 < x` and `y ≤ 0`, read as an unsigned integer, is the indicator
    of the conjunction. -/
theorem presentAbsent_of_word (x y : EReal) :
    (((IntOp.andi (Ideal.cmp .ogt x 0) (Ideal.cmp .ole y 0)).toNat : ℝ) : EReal) = presentAbsent x y := by
  unfold presentAbsent Ideal.cmp IntOp.andi
  by_cases hx : 0 < x <;> by_cases hy : y ≤ 0 <;> simp [hx, hy]

/-- THE LAW: the projection times the indicator of the conjunction is its positive part times the indicator of the
    second test alone, for all extended reals. -/
theorem mul_presentAbsent (x y : EReal) : x * presentAbsent x y = max x 0 * absent y := by
  unfold presentAbsent absent
  by_cases hx : 0 < x
  · rw [max_eq_left hx.le]
    by_cases hy : y ≤ 0 <;> simp [hx, hy]
  · rw [max_eq_right (not_lt.mp hx)]
    simp [hx]

end Cert.PresentAbsent

end
-- ==== Proof.KernelBlock.lean ====
/-
  One grid point's arithmetic, read at an index.

  The body takes a `[512, 512]` block `x0` of rows of `a`, a `[512, 512]` block `x1` of rows of `b` and the whole
  `[256, 512]` feature bank `x2`.  It projects both blocks on the bank (two products contracted along the second axis of
  both operands, into zero accumulators), takes the positive part of the first projection and the 0/1 indicator of
  the second being nonpositive (a comparison widened with zeros and read as a signed integer), and contracts those
  two `[512, 256]` arrays along the feature axis.  At the extended reals the changes of float format are the identity and
  each product is the plain finite sum, so the entry `(p, q)` of the block's result is
      Σ_k max (Σ_d x0[p, d] · x2[k, d]) 0 · [Σ_d x1[q, d] · x2[k, d] ≤ 0].
-/
import proofs.«133746_j78941498900584_2_alg».proof.Proof.Gen.KernelIdeal.Skeleton
import proofs.«133746_j78941498900584_2_alg».proof.Proof.PresentAbsent
import Idealize.ShloMosaic.Lib.ValueIdx
import Idealize.ShloMosaic.PureOps.Ideal.Laws

noncomputable section

namespace Cert.KernelIdeal.Block

open Cert.KernelIdeal Cert.KernelIdeal.Gen Idealize.ShloMosaic Idealize.ShloMosaic.ValueIdx Cert.PresentAbsent

/-! ## The projection's operand indices: rows `(j 0, k)` of the block against rows `(j 1, k)` of the bank -/

theorem proj_lhs_0 (j : S512x256.Idx) (q : dot_S512x512_S256x512_S512x256_1_1_0_0_n_n.contr.Idx) : (dot_S512x512_S256x512_S512x256_1_1_0_0_n_n.lhsIdx j q 0).val = (j 0).val := by
  unfold DotDims.lhsIdx
  rw [dif_neg (show ¬(0 : Fin S512x512.rank) ∈ dot_S512x512_S256x512_S512x256_1_1_0_0_n_n.lhsBatch by decide), dif_pos (show (0 : Fin S512x512.rank) ∈ dot_S512x512_S256x512_S512x256_1_1_0_0_n_n.lhsNonContracting by decide)]
  rfl
theorem proj_lhs_1 (j : S512x256.Idx) (q : dot_S512x512_S256x512_S512x256_1_1_0_0_n_n.contr.Idx) : (dot_S512x512_S256x512_S512x256_1_1_0_0_n_n.lhsIdx j q 1).val = (q ⟨0, by decide⟩).val :=
  dot_S512x512_S256x512_S512x256_1_1_0_0_n_n.lhsIdx_val_of_single rfl j q
theorem proj_rhs_0 (j : S512x256.Idx) (q : dot_S512x512_S256x512_S512x256_1_1_0_0_n_n.contr.Idx) : (dot_S512x512_S256x512_S512x256_1_1_0_0_n_n.rhsIdx j q 0).val = (j 1).val := by
  unfold DotDims.rhsIdx
  rw [dif_neg (show ¬(0 : Fin S256x512.rank) ∈ dot_S512x512_S256x512_S512x256_1_1_0_0_n_n.rhsBatch by decide), dif_pos (show (0 : Fin S256x512.rank) ∈ dot_S512x512_S256x512_S512x256_1_1_0_0_n_n.rhsNonContracting by decide)]
  rfl
theorem proj_rhs_1 (j : S512x256.Idx) (q : dot_S512x512_S256x512_S512x256_1_1_0_0_n_n.contr.Idx) : (dot_S512x512_S256x512_S512x256_1_1_0_0_n_n.rhsIdx j q 1).val = (q ⟨0, by decide⟩).val :=
  dot_S512x512_S256x512_S512x256_1_1_0_0_n_n.rhsIdx_val_of_single rfl j q

/-- A block of rows projected on the bank, into a zero accumulator, at `(p, k)`: `Σ_d x[p, d] · f[k, d]`. -/
theorem project_apply (x : FVec Ideal S512x512 .f32) (f : FVec Ideal S256x512 .f32) (p : Fin 512) (k : Fin 256) :
    FloatOps.matmul dot_S512x512_S256x512_S512x256_1_1_0_0_n_n (some .fp32) x f (constant S512x256 .f32 0x00000000#32) (ix2 p k)
      = ∑ d : Fin 512, x (ix2 p d) * f (ix2 k d) := by
  rw [Ideal.matmul_constant_zero_apply, ← Equiv.sum_comp (contrEquiv1 dot_S512x512_S256x512_S512x256_1_1_0_0_n_n 512 rfl rfl).symm]
  refine Finset.sum_congr rfl fun d _ => ?_
  have hd := contrEquiv1_symm_val dot_S512x512_S256x512_S512x256_1_1_0_0_n_n 512 rfl rfl d
  have el : dot_S512x512_S256x512_S512x256_1_1_0_0_n_n.lhsIdx (ix2 p k) ((contrEquiv1 dot_S512x512_S256x512_S512x256_1_1_0_0_n_n 512 rfl rfl).symm d) = ix2 p d := funext fun a => Fin.ext (by
    match a with
    | ⟨0, _⟩ => exact proj_lhs_0 _ _
    | ⟨1, _⟩ => exact (proj_lhs_1 _ _).trans hd)
  have er : dot_S512x512_S256x512_S512x256_1_1_0_0_n_n.rhsIdx (ix2 p k) ((contrEquiv1 dot_S512x512_S256x512_S512x256_1_1_0_0_n_n 512 rfl rfl).symm d) = ix2 k d := funext fun a => Fin.ext (by
    match a with
    | ⟨0, _⟩ => exact proj_rhs_0 _ _
    | ⟨1, _⟩ => exact (proj_rhs_1 _ _).trans hd)
  rw [el, er]

/-! ## The final contraction's operand indices: `(j 0, k)` of the first against `(j 1, k)` of the second -/

theorem comb_lhs_0 (j : S512x512.Idx) (q : dot_S512x256_S512x256_S512x512_1_1_0_0_n_n.contr.Idx) : (dot_S512x256_S512x256_S512x512_1_1_0_0_n_n.lhsIdx j q 0).val = (j 0).val := by
  unfold DotDims.lhsIdx
  rw [dif_neg (show ¬(0 : Fin S512x256.rank) ∈ dot_S512x256_S512x256_S512x512_1_1_0_0_n_n.lhsBatch by decide), dif_pos (show (0 : Fin S512x256.rank) ∈ dot_S512x256_S512x256_S512x512_1_1_0_0_n_n.lhsNonContracting by decide)]
  rfl
theorem comb_lhs_1 (j : S512x512.Idx) (q : dot_S512x256_S512x256_S512x512_1_1_0_0_n_n.contr.Idx) : (dot_S512x256_S512x256_S512x512_1_1_0_0_n_n.lhsIdx j q 1).val = (q ⟨0, by decide⟩).val :=
  dot_S512x256_S512x256_S512x512_1_1_0_0_n_n.lhsIdx_val_of_single rfl j q
theorem comb_rhs_0 (j : S512x512.Idx) (q : dot_S512x256_S512x256_S512x512_1_1_0_0_n_n.contr.Idx) : (dot_S512x256_S512x256_S512x512_1_1_0_0_n_n.rhsIdx j q 0).val = (j 1).val := by
  unfold DotDims.rhsIdx
  rw [dif_neg (show ¬(0 : Fin S512x256.rank) ∈ dot_S512x256_S512x256_S512x512_1_1_0_0_n_n.rhsBatch by decide), dif_pos (show (0 : Fin S512x256.rank) ∈ dot_S512x256_S512x256_S512x512_1_1_0_0_n_n.rhsNonContracting by decide)]
  rfl
theorem comb_rhs_1 (j : S512x512.Idx) (q : dot_S512x256_S512x256_S512x512_1_1_0_0_n_n.contr.Idx) : (dot_S512x256_S512x256_S512x512_1_1_0_0_n_n.rhsIdx j q 1).val = (q ⟨0, by decide⟩).val :=
  dot_S512x256_S512x256_S512x512_1_1_0_0_n_n.rhsIdx_val_of_single rfl j q

/-- Two `[512, 256]` arrays contracted along the feature axis, into a zero accumulator, at `(p, q)`:
    `Σ_k u[p, k] · w[q, k]`. -/
theorem combine_apply (u w : FVec Ideal S512x256 .bf16) (p q : Fin 512) :
    FloatOps.matmul dot_S512x256_S512x256_S512x512_1_1_0_0_n_n none u w (constant S512x512 .f32 0x00000000#32) (ix2 p q)
      = ∑ k : Fin 256, u (ix2 p k) * w (ix2 q k) := by
  rw [Ideal.matmul_constant_zero_apply, ← Equiv.sum_comp (contrEquiv1 dot_S512x256_S512x256_S512x512_1_1_0_0_n_n 256 rfl rfl).symm]
  refine Finset.sum_congr rfl fun k _ => ?_
  have hk := contrEquiv1_symm_val dot_S512x256_S512x256_S512x512_1_1_0_0_n_n 256 rfl rfl k
  have el : dot_S512x256_S512x256_S512x512_1_1_0_0_n_n.lhsIdx (ix2 p q) ((contrEquiv1 dot_S512x256_S512x256_S512x512_1_1_0_0_n_n 256 rfl rfl).symm k) = ix2 p k := funext fun a => Fin.ext (by
    match a with
    | ⟨0, _⟩ => exact comb_lhs_0 _ _
    | ⟨1, _⟩ => exact (comb_lhs_1 _ _).trans hk)
  have er : dot_S512x256_S512x256_S512x512_1_1_0_0_n_n.rhsIdx (ix2 p q) ((contrEquiv1 dot_S512x256_S512x256_S512x512_1_1_0_0_n_n 256 rfl rfl).symm k) = ix2 q k := funext fun a => Fin.ext (by
    match a with
    | ⟨0, _⟩ => exact comb_rhs_0 _ _
    | ⟨1, _⟩ => exact (comb_rhs_1 _ _).trans hk)
  rw [el, er]

/-! ## The block's result at `(p, q)` -/

/-- What one grid point stores, at row `p` and column `q` of its block: over the features `k`, the positive part of
    row `p` of the first block projected on feature `k`, counted where row `q` of the second block projects
    nonpositively. -/
theorem payload_apply (x0 x1 : FVec Ideal S512x512 .f32) (x2 : FVec Ideal S256x512 .f32) (p q : Fin 512) :
    k0_pay1 (F := Ideal) x0 x1 x2 (ix2 p q)
      = ∑ k : Fin 256, max (∑ d : Fin 512, x0 (ix2 p d) * x2 (ix2 k d)) 0
          * absent (∑ d : Fin 512, x1 (ix2 q d) * x2 (ix2 k d)) := by
  unfold k0_pay1
  refine (combine_apply _ _ p q).trans ?_
  refine Finset.sum_congr rfl fun k _ => ?_
  show max (FloatOps.matmul dot_S512x512_S256x512_S512x256_1_1_0_0_n_n (some .fp32) x0 x2 (constant S512x256 .f32 0x00000000#32) (ix2 p k)) (Ideal.ofBits .f32 0x00000000#32)
      * (((((Ideal.cmp .ole (FloatOps.matmul dot_S512x512_S256x512_S512x256_1_1_0_0_n_n (some .fp32) x1 x2 (constant S512x256 .f32 0x00000000#32) (ix2 q k)) (Ideal.ofBits .f32 0x00000000#32)).setWidth 32).toInt : ℝ)) : EReal) = _
  rw [project_apply, project_apply, Ideal.ofBits_zero_f32, absent_of_word]

end Cert.KernelIdeal.Block

end
-- ==== Proof.KernelScore.lean ====
/-
  From the four blocks to the whole array.

  The grid is `2 × 2`.  Point `(i, j)` stages rows `512 i … 512 i + 511` of `a`, rows `512 j … 512 j + 511` of `b` and
  the whole feature bank, and writes back the block of the `[1024, 1024]` result at rows `512 i …` and columns
  `512 j …`.  An entry `(p, q)` of what the point stores depends only on row `p` of its `a`-block and row `q` of its
  `b`-block, that is on row `512 i + p` of `a` and row `512 j + q` of `b`: it is `score a b f` at
  `(512 i + p, 512 j + q)`, the array index the block's entry `(p, q)` sits at.  So every point writes back a block of the
  one function `score a b f`; the four blocks cover the array (index `(r, s)` lies in the block of point
  `(r / 512, s / 512)`), and the array ends holding `score a b f`.
-/
import proofs.«133746_j78941498900584_2_alg».proof.Proof.Gen.KernelIdeal.Value
import proofs.«133746_j78941498900584_2_alg».proof.Proof.KernelBlock
import proofs.«133746_j78941498900584_2_alg».proof.Proof.PresentAbsent
import Idealize.ShloMosaic.Lib.Pipeline.Value
import Idealize.ShloMosaic.Lib.ValueIdx

noncomputable section

namespace Cert.KernelIdeal.Whole

open Cert.KernelIdeal Cert.KernelIdeal.Gen Idealize.ShloMosaic Idealize.ShloMosaic.TcCoe Idealize.SL.Sem
open Idealize.ShloMosaic.ValueIdx Cert.PresentAbsent Cert.KernelIdeal.Block
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The printed index maps, decided over the four grid points: the `a`-block moves with the result's row block, the
    `b`-block with the result's column block, the bank does not move, and the result's block indices are `0` or `1`. -/
theorem index_facts : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = 0 ∧ win0_2.index t (1 : Fin 2) = 0
    ∧ win0_3.index t (0 : Fin 2) ≤ 1 ∧ win0_3.index t (1 : Fin 2) ≤ 1 :=
  (by decide +kernel : ∀ t : Fin grid0.N, _)

/-- Every pair of block indices is some point's. -/
theorem index_onto : ∀ (q0 q1 : Fin 2), ∃ t : Fin cfg0.N, win0_3.index t = ![q0.val, q1.val] :=
  (by decide +kernel : ∀ (q0 q1 : Fin 2), ∃ t : Fin grid0.N, win0_3.index t = ![q0.val, q1.val])

/-- One entry of one point's result is one entry of `score`: if row `p` of the staged `a`-block is row `r` of `A`,
    row `q` of the staged `b`-block is row `s` of `B`, and the staged bank is `Fb`, then the stored entry `(p, q)` is
    `scoreAt A B Fb r s`. -/
theorem entry_eq (A B : (⟨2, ![1024, 512]⟩ : Shape).Idx → EReal) (Fb : (⟨2, ![256, 512]⟩ : Shape).Idx → EReal)
    (x0 x1 : FVec Ideal S512x512 .f32) (x2 : FVec Ideal S256x512 .f32) (p q : Fin 512) (r s : Fin 1024)
    (h0 : ∀ d : Fin 512, x0 (ix2 p d) = A (ix2 r d)) (h1 : ∀ d : Fin 512, x1 (ix2 q d) = B (ix2 s d))
    (h2 : ∀ (k : Fin 256) (d : Fin 512), x2 (ix2 k d) = Fb (ix2 k d)) :
    k0_pay1 (F := Ideal) x0 x1 x2 (ix2 p q) = scoreAt A B Fb r s := by
  rw [payload_apply]
  unfold scoreAt proj
  refine Finset.sum_congr rfl fun k _ => ?_
  have ea : (∑ d : Fin 512, x0 (ix2 p d) * x2 (ix2 k d)) = ∑ d : Fin 512, A (ix2 r d) * Fb (ix2 k d) :=
    Finset.sum_congr rfl fun d _ => by rw [h0 d, h2 k d]
  have eb : (∑ d : Fin 512, x1 (ix2 q d) * x2 (ix2 k d)) = ∑ d : Fin 512, B (ix2 s d) * Fb (ix2 k d) :=
    Finset.sum_congr rfl fun d _ => by rw [h1 d, h2 k d]
  rw [ea, eb]

/-- WHAT POINT `t` WRITES BACK is block `t` of `score` of the argument arrays as the region finds them. -/
theorem flushed_eq (c : Dev nD) (t : Fin cfg0.N) :
    (dats m 0 c).flushed 3 t = ((cfg0.win 3).blk t).view.read (Elt Ideal)
      (score (V m c main_arg0) (V m c main_arg1) (V m c main_arg2)) := by
  rw [Value.flushed3]
  unfold out0_3
  rw [View.canon_unit_zero zero_offsets]
  simp only [View.ld_unit_zero (S := S512x512) zero_offsets, View.ld_unit_zero (S := S256x512) zero_offsets]
  obtain ⟨e0, e1, e2, e3, e4, e5, e6, e7⟩ := index_facts t
  funext j
  show k0_pay1 (F := Ideal) (iblk m c 0 t) (iblk m c 1 t) (iblk m c 2 t) j
    = score (V m c main_arg0) (V m c main_arg1) (V m c main_arg2) (((cfg0.win 3).blk t).view.emb j)
  have hp : (j 0).val < 512 := (j 0).isLt
  have hq : (j 1).val < 512 := (j 1).isLt
  have hj : j = ix2 (⟨(j 0).val, hp⟩ : Fin 512) (⟨(j 1).val, hq⟩ : Fin 512) :=
    funext fun a => by match a with | ⟨0, _⟩ => rfl | ⟨1, _⟩ => rfl
  refine (congrArg (k0_pay1 (F := Ideal) (iblk m c 0 t) (iblk m c 1 t) (iblk m c 2 t)) hj).trans ?_
  refine (entry_eq (V m c main_arg0) (V m c main_arg1) (V m c main_arg2) (iblk m c 0 t) (iblk m c 1 t) (iblk m c 2 t)
    ⟨(j 0).val, hp⟩ ⟨(j 1).val, hq⟩
    ⟨((((cfg0.win 3).blk t).view.emb j) 0).val, idx2_lt0 (((cfg0.win 3).blk t).view.emb j)⟩
    ⟨((((cfg0.win 3).blk t).view.emb j) 1).val, idx2_lt1 (((cfg0.win 3).blk t).view.emb j)⟩ ?_ ?_ ?_).trans rfl
  · intro d
    show V m c main_arg0 (((cfg0.win 0).blk t).view.emb (ix2 (⟨(j 0).val, hp⟩ : Fin 512) d)) = V m c main_arg0 _
    refine congrArg (V m c main_arg0) (funext fun a => Fin.ext ?_)
    match a with
    | ⟨0, _⟩ => show win0_0.index t (0 : Fin 2) * 512 + 1 * (j 0).val = win0_3.index t (0 : Fin 2) * 512 + 1 * (j 0).val; rw [e0]
    | ⟨1, _⟩ => show win0_0.index t (1 : Fin 2) * 512 + 1 * d.val = d.val; rw [e1]; omega
  · intro d
    show V m c main_arg1 (((cfg0.win 1).blk t).view.emb (ix2 (⟨(j 1).val, hq⟩ : Fin 512) d)) = V m c main_arg1 _
    refine congrArg (V m c main_arg1) (funext fun a => Fin.ext ?_)
    match a with
    | ⟨0, _⟩ => show win0_1.index t (0 : Fin 2) * 512 + 1 * (j 1).val = win0_3.index t (1 : Fin 2) * 512 + 1 * (j 1).val; rw [e2]
    | ⟨1, _⟩ => show win0_1.index t (1 : Fin 2) * 512 + 1 * d.val = d.val; rw [e3]; omega
  · intro k d
    show V m c main_arg2 (((cfg0.win 2).blk t).view.emb (ix2 k d)) = V m c main_arg2 _
    refine congrArg (V m c main_arg2) (funext fun a => Fin.ext ?_)
    match a with
    | ⟨0, _⟩ => show win0_2.index t (0 : Fin 2) * 256 + 1 * k.val = k.val; rw [e4]; omega
    | ⟨1, _⟩ => show win0_2.index t (1 : Fin 2) * 512 + 1 * d.val = d.val; rw [e5]; omega

/-- An index of the array is in point `t`'s block iff each coordinate is in the block's range on its axis. -/
theorem mem_block (t : Fin cfg0.N) (i : S1024x1024.Idx) :
    i ∈ ((cfg0.win 3).blk t).view.set ↔ ∀ a : Fin 2, win0_3.index t a * S512x512.size a ≤ (i a).val
      ∧ (i a).val < win0_3.index t a * S512x512.size a + S512x512.size a := by
  show i ∈ ((View.whole main_v0).slice (win0_3.rect t)).set ↔ _
  rw [View.set_slice_whole, Rect.mem_set_unit]
  exact Iff.rfl

/-- The four blocks cover the array: `(r, s)` lies in the block of the point with block indices `(r / 512, s / 512)`. -/
theorem covered (i : S1024x1024.Idx) :
    ∃ t : Fin cfg0.N, (cfg0.win 3).flush t = true ∧ i ∈ ((cfg0.win 3).blk t).view.set := by
  have hi0 : (i 0).val < 1024 := (i 0).isLt
  have hi1 : (i 1).val < 1024 := (i 1).isLt
  obtain ⟨t, ht⟩ := index_onto ⟨(i 0).val / 512, by omega⟩ ⟨(i 1).val / 512, by omega⟩
  have q0 : win0_3.index t (0 : Fin 2) = (i 0).val / 512 := congrFun ht 0
  have q1 : win0_3.index t (1 : Fin 2) = (i 1).val / 512 := congrFun ht 1
  refine ⟨t, flush0_3 t, ?_⟩
  rw [mem_block]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 512 ≤ (i 1).val ∧ (i 1).val < win0_3.index t (1 : Fin 2) * 512 + 512; omega

/-- THE ARRAY after the run is `score` of the three argument arrays. -/
theorem final (c : Dev nD) : (dats m 0 c).arrAt 3 cfg0.N
    = score (m ((c : Thread nD τ).loc main_arg0)) (m ((c : Thread nD τ).loc main_arg1)) (m ((c : Thread nD τ).loc main_arg2)) :=
  (dats m 0 c).arrAt_eq_of_cover 3 (score (V m c main_arg0) (V m c main_arg1) (V m c main_arg2))
    (fun t _ => flushed_eq m c t) covered

/-- The run, read: the result array at `score` of the arguments, the arguments unchanged. -/
theorem run : θ_run defs (onTc (τ := τ) (main (F := Ideal))) ⟨m, fun _ => 0, ρ⟩ fun r => ∀ c : Dev nD,
      r.2.mem ((c : Thread nD τ).loc main_v0)
        = score (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Whole

end
-- ==== Proof.ReferenceScore.lean ====
/-
  The reference's result is `score`.

  The reference projects `a` and `b` on the transposed feature bank (two host products contracted over the 512
  columns), spreads the first projection along a new middle axis and the second along a new leading axis, compares the
  first with zero (`>`) and the second with zero (`≤`), broadcasts both one-bit masks to `[1024, 1024, 256]`, ANDs them,
  reads the mask as an unsigned integer in floating point, multiplies it by the broadcast first projection and sums over the
  last axis from a zero initial value.  Read at `(r, s)` and at the extended reals this is
      0 + Σ_k proj a f r k · [0 < proj a f r k ∧ proj b f s k ≤ 0],
  and the law `mul_presentAbsent` turns each term into `max (proj a f r k) 0 · [proj b f s k ≤ 0]`.
-/
import proofs.«133746_j78941498900584_2_alg».proof.Proof.Gen.ReferenceIdeal.Read
import proofs.«133746_j78941498900584_2_alg».proof.Proof.PresentAbsent

noncomputable section

namespace Cert.ReferenceIdeal.Score

open Cert.ReferenceIdeal Cert.ReferenceIdeal.Read Idealize.ShloMosaic Idealize.ShloMosaic.ValueIdx Cert.PresentAbsent

/-- The first host product at `(r, k)` is row `r` of `a` against row `k` of the bank (the transpose read back). -/
theorem proj_a (x0 : (⟨S1024x512, .f32⟩ : BufTy).Contents (Elt Ideal)) (x2 : (⟨S256x512, .f32⟩ : BufTy).Contents (Elt Ideal)) (r : Fin 1024) (k : Fin 256) :
    val_main_v1 (F := Ideal) x0 x2 (ix2 r k) = proj x0 x2 r k := by
  rw [val_main_v1_apply]
  unfold proj
  refine Finset.sum_congr rfl fun d _ => ?_
  rw [val_main_v0_apply]
  have e1 : lidx_main_v1 (ix2 r k) d = ix2 r d := funext fun a => Fin.ext (by match a with | ⟨0, _⟩ => rfl | ⟨1, _⟩ => rfl)
  have e2 : idx_main_v0 (ridx_main_v1 (ix2 r k) d) = ix2 k d := funext fun a => Fin.ext (by match a with | ⟨0, _⟩ => rfl | ⟨1, _⟩ => rfl)
  rw [e1, e2]

/-- The second host product at `(s, k)` is row `s` of `b` against row `k` of the bank. -/
theorem proj_b (x1 : (⟨S1024x512, .f32⟩ : BufTy).Contents (Elt Ideal)) (x2 : (⟨S256x512, .f32⟩ : BufTy).Contents (Elt Ideal)) (s : Fin 1024) (k : Fin 256) :
    val_main_v3 (F := Ideal) x1 x2 (ix2 s k) = proj x1 x2 s k := by
  rw [val_main_v3_apply]
  unfold proj
  refine Finset.sum_congr rfl fun d _ => ?_
  rw [val_main_v2_apply]
  have e1 : lidx_main_v3 (ix2 s k) d = ix2 s d := funext fun a => Fin.ext (by match a with | ⟨0, _⟩ => rfl | ⟨1, _⟩ => rfl)
  have e2 : idx_main_v2 (ridx_main_v3 (ix2 s k) d) = ix2 k d := funext fun a => Fin.ext (by match a with | ⟨0, _⟩ => rfl | ⟨1, _⟩ => rfl)
  rw [e1, e2]

/-- The reference's last stage, as a whole array, is `score` of the three arguments. -/
theorem reference_eq (x0 x1 : (⟨S1024x512, .f32⟩ : BufTy).Contents (Elt Ideal)) (x2 : (⟨S256x512, .f32⟩ : BufTy).Contents (Elt Ideal)) :
    val_main_v16 (F := Ideal) x0 x1 x2 = score x0 x1 x2 := by
  funext j
  obtain ⟨r, s, rfl⟩ : ∃ (r s : Fin 1024), j = ix2 r s := ⟨j 0, j 1, eq_ix2 j⟩
  rw [score_ix2, val_main_v16_apply, val_main_cst_1_apply]
  show Ideal.ofBits .f32 0x00000000#32 + _ = _
  rw [Ideal.ofBits_zero_f32, zero_add]
  unfold scoreAt
  refine Finset.sum_congr rfl fun k _ => ?_
  have ea : idx_main_v4 (idx_main_v14 (idx_main_v16 (ix2 r s) k)) = ix2 r k :=
    funext fun a => Fin.ext (by match a with | ⟨0, _⟩ => rfl | ⟨1, _⟩ => rfl)
  have eb : idx_main_v5 (idx_main_v11 (idx_main_v16 (ix2 r s) k)) = ix2 s k :=
    funext fun a => Fin.ext (by match a with | ⟨0, _⟩ => rfl | ⟨1, _⟩ => rfl)
  rw [val_main_v15_apply, val_main_v14_apply, val_main_v4_apply, val_main_v13_apply, val_main_v12_apply,
    val_main_v10_apply, val_main_v11_apply, val_main_v7_apply, val_main_v9_apply, val_main_v4_apply, val_main_v5_apply,
    val_main_v6_apply, val_main_v8_apply, val_main_cst_apply, val_main_cst_0_apply, ea, eb, proj_a, proj_b]
  show proj x0 x2 r k * ((((IntOp.andi (Ideal.cmp .ogt (proj x0 x2 r k) (Ideal.ofBits .f32 0x00000000#32))
      (Ideal.cmp .ole (proj x1 x2 s k) (Ideal.ofBits .f32 0x00000000#32))).toNat : ℝ)) : EReal) = _
  rw [Ideal.ofBits_zero_f32, presentAbsent_of_word, mul_presentAbsent]

end Cert.ReferenceIdeal.Score

end
-- ==== Proof.lean ====
/-
  The kernel and its reference compute one function of their arguments over the extended reals.

  With `proj x f r k = Σ_d x[r, d] · f[k, d]`, both end with the `[1024, 1024]` array
      score a b f (r, s) = Σ_k max (proj a f r k) 0 · [proj b f s k ≤ 0]
  (Proof/PresentAbsent.lean).  The kernel computes it tile by tile on a `2 × 2` grid: a point projects its 512 rows of
  `a` and its 512 rows of `b` on the feature bank, forms the positive part of the first and the 0/1 indicator of the
  second being nonpositive, and contracts them along the feature axis (Proof/KernelBlock.lean: one point's result at an
  index; Proof/KernelScore.lean: every point writes a block of `score`, the blocks cover the array).  The reference
  forms `Σ_k proj a f r k · [0 < proj a f r k ∧ proj b f s k ≤ 0]` on the host (Proof/ReferenceScore.lean), equal to `score`
  term by term because `x · [0 < x ∧ c] = max x 0 · [c]` for every extended real `x`, the infinite ones included.  The
  roundings to bf16 on the way into the last product are the identity at the extended reals, and the idealization
  rewrote nothing, so `preserves` is `True`.  The equality holds for all inputs: the finiteness precondition is not used.

  The three frames: both kernel programs' are the generated frame certificates; the reference's is its generated run
  with the result dropped.
-/
import proofs.«133746_j78941498900584_2_alg».proof.Defs
import proofs.«133746_j78941498900584_2_alg».proof.Proof.Gen.Kernel
import proofs.«133746_j78941498900584_2_alg».proof.Proof.Gen.Kernel.Frame
import proofs.«133746_j78941498900584_2_alg».proof.Proof.Gen.KernelIdeal
import proofs.«133746_j78941498900584_2_alg».proof.Proof.Gen.KernelIdeal.Frame
import proofs.«133746_j78941498900584_2_alg».proof.Proof.Gen.KernelIdeal.Value
import proofs.«133746_j78941498900584_2_alg».proof.Proof.Gen.ReferenceIdeal
import proofs.«133746_j78941498900584_2_alg».proof.Proof.Gen.ReferenceIdeal.Run
import proofs.«133746_j78941498900584_2_alg».proof.Proof.Gen.ReferenceIdeal.Read
import proofs.«133746_j78941498900584_2_alg».proof.Proof.Gen.Pre_finite_inputs
import proofs.«133746_j78941498900584_2_alg».proof.Proof.PresentAbsent
import proofs.«133746_j78941498900584_2_alg».proof.Proof.KernelScore
import proofs.«133746_j78941498900584_2_alg».proof.Proof.ReferenceScore
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference runs and leaves its arguments unchanged: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on `a`, `b` and the feature bank, both programs end with the result array at `score a b f`. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.Score.reference_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
